-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x1024 : Shape := ⟨3, ![256, 64, 1024]⟩
abbrev S4096x1024 : Shape := ⟨2, ![4096, 1024]⟩
abbrev S4096 : Shape := ⟨1, ![4096]⟩
abbrev S_ : Shape := ⟨0, ![]⟩

class Facts : Prop where
  bcast_S_S256x64x1024 : S_.BroadcastsInDim S256x64x1024 (![] : Fin 0 → Fin S256x64x1024.rank)
  reducesTo_S256x64x1024_S_d0_1_2 : S256x64x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S256x64x1024 .f32) (main_arg1 : FVec F S4096x1024 .f32) (main_arg2 : FVec F S4096 .f32) : IVec S_ 1 :=
  let main_v0 : FVec F S256x64x1024 .f32 := Host.absf main_arg0
  let main_cst : FVec F S_ .f32 := constant S_ .f32 0x7F800000#32
  let main_v1 : FVec F S256x64x1024 .f32 := broadcastInDim S256x64x1024 ![] bcast_S_S256x64x1024 main_cst
  let main_v2 : IVec S256x64x1024 1 := cmpf .olt main_v0 main_v1
  let main_c : IVec S_ 1 := constantI S_ 1 1#1
  let main_v3 : IVec S_ 1 := (fun x v => Host.reduce IntOp.andi x v reducesTo_S256x64x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S256x64x1024 : Shape := ⟨3, ![256, 64, 1024]⟩
abbrev S4096x1024 : Shape := ⟨2, ![4096, 1024]⟩
abbrev S4096 : Shape := ⟨1, ![4096]⟩
abbrev S16384x1024 : Shape := ⟨2, ![16384, 1024]⟩
abbrev S16384x4096 : Shape := ⟨2, ![16384, 4096]⟩
abbrev S1024x1024 : Shape := ⟨2, ![1024, 1024]⟩
abbrev S1024 : Shape := ⟨1, ![1024]⟩
abbrev S1x1024 : Shape := ⟨2, ![1, 1024]⟩
abbrev S256x64x4096 : Shape := ⟨3, ![256, 64, 4096]⟩

abbrev nBuf : Space → Nat
  | .hbm => 6
  | .vmem => 8
  | .smem => 0
  | _ => 0

abbrev bufTy : (tb : Table) → Fin (tcTables nBuf tb) → BufTy
  | .hbm, ⟨0, _⟩ => ⟨S256x64x1024, .f32⟩
  | .hbm, ⟨1, _⟩ => ⟨S4096x1024, .f32⟩
  | .hbm, ⟨2, _⟩ => ⟨S4096, .f32⟩
  | .hbm, ⟨3, _⟩ => ⟨S16384x1024, .f32⟩
  | .hbm, ⟨4, _⟩ => ⟨S16384x4096, .f32⟩
  | .hbm, ⟨5, _⟩ => ⟨S256x64x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024, .f32⟩
  | .local _ .vmem, ⟨5, _⟩ => ⟨S1024, .f32⟩
  | .local _ .vmem, ⟨6, _⟩ => ⟨S1024x1024, .f32⟩
  | .local _ .vmem, ⟨7, _⟩ => ⟨S1024x1024, .f32⟩
  | _, _ => ⟨S256x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S256x64x1024_S16384x1024 : S256x64x1024.ShapeCasts S16384x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  shapeCasts_S16384x4096_S256x64x4096 : S16384x4096.ShapeCasts S256x64x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .f32 = 32 ∨ (Rect.block (s := S4096x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S4096.size a
  hwx0_2 : ∀ i : grid0.Coords, EltTy.bits .f32 = 32 ∨ (Rect.block (s := S4096) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x4096.size a
  hwx0_3 : ∀ i : grid0.Coords, EltTy.bits .f32 = 32 ∨ (Rect.block (s := S16384x4096) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x64x1024 : Shape := ⟨3, ![256, 64, 1024]⟩
abbrev S4096x1024 : Shape := ⟨2, ![4096, 1024]⟩
abbrev S4096 : Shape := ⟨1, ![4096]⟩
abbrev S256x64x4096 : Shape := ⟨3, ![256, 64, 4096]⟩
abbrev S1x1x4096 : Shape := ⟨3, ![1, 1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S256x64x1024, .f32⟩
  | .hbm, ⟨1, _⟩ => ⟨S4096x1024, .f32⟩
  | .hbm, ⟨2, _⟩ => ⟨S4096, .f32⟩
  | .hbm, ⟨3, _⟩ => ⟨S256x64x4096, .f32⟩
  | .hbm, ⟨4, _⟩ => ⟨S1x1x4096, .f32⟩
  | .hbm, ⟨5, _⟩ => ⟨S256x64x4096, .f32⟩
  | .hbm, ⟨6, _⟩ => ⟨S256x64x4096, .f32⟩
  | _, _ => ⟨S256x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S256x64x4096_0_1_2 : S1x1x4096.BroadcastsInDim S256x64x4096 (![0, 1, 2] : Fin 3 → Fin S256x64x4096.rank)
  dot_S256x64x1024_S4096x1024_S256x64x4096_2_1_01_0_n_n_wf : DotDims.WF S256x64x1024 S4096x1024 S256x64x4096 [2] [1] [0, 1] [0] [] []

variable [Facts₀]

def dot_S256x64x1024_S4096x1024_S256x64x4096_2_1_01_0_n_n : DotDims S256x64x1024 S4096x1024 S256x64x4096 where
  lhsContracting := [2]
  rhsContracting := [1]
  lhsNonContracting := [0, 1]
  rhsNonContracting := [0]
  lhsBatch := []
  rhsBatch := []
  wf := dot_S256x64x1024_S4096x1024_S256x64x4096_2_1_01_0_n_n_wf

class Facts : Prop extends Facts₀ where

variable [Facts]
-- ==== Proof.BlockReads.lean ====
/-
  What the region stages at a grid point, read off the arrays as the region finds them.

  The grid is 16 × 4: point t has a block row i = (output window's block index on axis 0) and a block column j = (its block
  index on axis 1). The printed index maps say

    * the flattened input's window is at block (i, 0): rows 1024·i …, all 1024 columns;
    * the weights' window is at block (j, 0): rows 1024·j … of W, all 1024 columns;
    * the bias's window is at block j: entries 1024·j …;
    * the output's window is at block (i, j), and every (i, j) with i < 16, j < 4 is some point's.

  These relations are decided once over the 64 points. Each input block is then the array read at "block index × 1024 + the
  coordinate inside the block" on each axis. The flattened input itself is the host's row-major reshape of x, done before the
  region; W and b reach the region as launched.
-/
import proofs.«149523_j41162966565492_2_alg».proof.Proof.Gen.KernelIdeal.Frame
import Idealize.ShloMosaic.PureOps.Ideal
import Idealize.ShloMosaic.Lib.Pipeline.Value
import Idealize.ShloMosaic.Lib.StableHlo.Run

noncomputable section

namespace Cert.KernelIdeal.BlockReads

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The input windows' block indices in terms of the output window's, and the output's ranges, at every grid point. -/
theorem index_maps : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 1) = win0_3.index t (1 : Fin 2)
    ∧ win0_3.index t (0 : Fin 2) ≤ 15 ∧ win0_3.index t (1 : Fin 2) ≤ 3 :=
  (by decide +kernel : ∀ t : Fin grid0.N, _)

/-- Every block (i, j) of the output, i < 16 and j < 4, is some grid point's. -/
theorem index_onto : ∀ (i : Fin 16) (j : Fin 4), ∃ t : Fin cfg0.N, win0_3.index t = ![i.val, j.val] :=
  (by decide +kernel : ∀ (i : Fin 16) (j : Fin 4), ∃ t : Fin grid0.N, win0_3.index t = ![i.val, j.val])

/-- The flattened input's block at point t: rows 1024·i … of the flattened input, all columns. -/
theorem input_block (c : Dev nD) (t : Fin cfg0.N) (u : S1024x1024.Idx) (k : S16384x1024.Idx)
    (h0 : (k 0).val = win0_3.index t (0 : Fin 2) * 1024 + (u 0).val) (h1 : (k 1).val = (u 1).val) :
    (iblk m c 0 t : Vec Ideal S1024x1024 .f32) u = (V m c main_v0 : S16384x1024.Idx → Elt Ideal .f32) k := by
  obtain ⟨e0, e1, -, -, -, -, -⟩ := index_maps t
  unfold iblk
  rw [View.read_apply]
  show (V m c main_v0 : S16384x1024.Idx → Elt Ideal .f32) _ = (V m c main_v0 : S16384x1024.Idx → Elt Ideal .f32) k
  refine congrArg (V m c main_v0 : S16384x1024.Idx → Elt Ideal .f32) (funext fun a => Fin.ext ?_)
  match a with
  | ⟨0, _⟩ => show win0_0.index t (0 : Fin 2) * 1024 + 1 * (u 0).val = (k 0).val; omega
  | ⟨1, _⟩ => show win0_0.index t (1 : Fin 2) * 1024 + 1 * (u 1).val = (k 1).val; omega

/-- The weights' block at point t: rows 1024·j … of W, all columns. -/
theorem weight_block (c : Dev nD) (t : Fin cfg0.N) (u : S1024x1024.Idx) (k : S4096x1024.Idx)
    (h0 : (k 0).val = win0_3.index t (1 : Fin 2) * 1024 + (u 0).val) (h1 : (k 1).val = (u 1).val) :
    (iblk m c 1 t : Vec Ideal S1024x1024 .f32) u = (V m c main_arg1 : S4096x1024.Idx → Elt Ideal .f32) k := by
  obtain ⟨-, -, e2, e3, -, -, -⟩ := index_maps t
  unfold iblk
  rw [View.read_apply]
  show (V m c main_arg1 : S4096x1024.Idx → Elt Ideal .f32) _ = (V m c main_arg1 : S4096x1024.Idx → Elt Ideal .f32) k
  refine congrArg (V m c main_arg1 : S4096x1024.Idx → Elt Ideal .f32) (funext fun a => Fin.ext ?_)
  match a with
  | ⟨0, _⟩ => show win0_1.index t (0 : Fin 2) * 1024 + 1 * (u 0).val = (k 0).val; omega
  | ⟨1, _⟩ => show win0_1.index t (1 : Fin 2) * 1024 + 1 * (u 1).val = (k 1).val; omega

/-- The bias's block at point t: entries 1024·j … of b. -/
theorem bias_block (c : Dev nD) (t : Fin cfg0.N) (u : S1024.Idx) (k : S4096.Idx)
    (h0 : (k 0).val = win0_3.index t (1 : Fin 2) * 1024 + (u 0).val) :
    (iblk m c 2 t : Vec Ideal S1024 .f32) u = (V m c main_arg2 : S4096.Idx → Elt Ideal .f32) k := by
  obtain ⟨-, -, -, -, e4, -, -⟩ := index_maps t
  unfold iblk
  rw [View.read_apply]
  show (V m c main_arg2 : S4096.Idx → Elt Ideal .f32) _ = (V m c main_arg2 : S4096.Idx → Elt Ideal .f32) k
  refine congrArg (V m c main_arg2 : S4096.Idx → Elt Ideal .f32) (funext fun a => Fin.ext ?_)
  match a with
  | ⟨0, _⟩ => show win0_2.index t (0 : Fin 1) * 1024 + 1 * (u 0).val = (k 0).val; omega

/-- The flattened input, as the region finds it, is the row-major reshape of x as launched. -/
theorem flattened_input (c : Dev nD) :
    (V m c main_v0 : S16384x1024.Idx → Elt Ideal .f32)
      = shapeCast S16384x1024 (m ((c : Thread nD τ).loc main_arg0) : S256x64x1024.Idx → Elt Ideal .f32) shapeCasts_S256x64x1024_S16384x1024 := by
  show StableHlo.after hostOps0 (fun b => m (c, b)) (Proc.devRef .tc main_v0) = _
  after_results
  rfl

end Cert.KernelIdeal.BlockReads

end
-- ==== Proof.BlockProduct.lean ====
/-
  What the kernel body stores, entry by entry, at the exact values.

  The body loads a [1024, 1024] block X of the flattened input, a [1024, 1024] block Wb of the weights (1024 rows of W, each
  with all 1024 input features) and the matching 1024 entries bb of the bias, and stores

      X ·ᵀ Wb + bb[None, :]

  where the product contracts the SECOND axis of both operands (it is X times the transpose of Wb) and starts from a zero
  accumulator, and the bias is laid out as a [1, 1024] row and repeated down the 1024 rows. Entry (p, q) of what is stored is
  therefore

      Σ_k X[p, k] · Wb[q, k] + bb[q].

  At the exact values the accumulator's zero disappears (0 + a = a on the extended reals, with no condition on a), the
  contraction index of the product is the single axis k, and the layout operations only rename indices.
-/
import proofs.«149523_j41162966565492_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.BlockProduct

open Cert.KernelIdeal Cert.KernelIdeal.Gen Idealize.ShloMosaic Idealize.ShloMosaic.ValueIdx

/-! ## The product's operand indices, coordinate by coordinate

The product's record contracts axis 1 of the left operand with axis 1 of the right; the output's axis 0 is the left operand's
free axis and its axis 1 the right operand's free axis. -/

theorem left_row (j : S1024x1024.Idx) (q : dot_S1024x1024_S1024x1024_S1024x1024_1_1_0_0_n_n.contr.Idx) :
    (dot_S1024x1024_S1024x1024_S1024x1024_1_1_0_0_n_n.lhsIdx j q 0).val = (j 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

theorem left_col (j : S1024x1024.Idx) (q : dot_S1024x1024_S1024x1024_S1024x1024_1_1_0_0_n_n.contr.Idx) :
    (dot_S1024x1024_S1024x1024_S1024x1024_1_1_0_0_n_n.lhsIdx j q 1).val = (q ⟨0, by decide⟩).val :=
  dot_S1024x1024_S1024x1024_S1024x1024_1_1_0_0_n_n.lhsIdx_val_of_single rfl j q

theorem right_row (j : S1024x1024.Idx) (q : dot_S1024x1024_S1024x1024_S1024x1024_1_1_0_0_n_n.contr.Idx) :
    (dot_S1024x1024_S1024x1024_S1024x1024_1_1_0_0_n_n.rhsIdx j q 0).val = (j 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

theorem right_col (j : S1024x1024.Idx) (q : dot_S1024x1024_S1024x1024_S1024x1024_1_1_0_0_n_n.contr.Idx) :
    (dot_S1024x1024_S1024x1024_S1024x1024_1_1_0_0_n_n.rhsIdx j q 1).val = (q ⟨0, by decide⟩).val :=
  dot_S1024x1024_S1024x1024_S1024x1024_1_1_0_0_n_n.rhsIdx_val_of_single rfl j q

/-! ## The three pieces of the stored value at an index -/

/-- The product into the zero accumulator at (p, q): row p of the left block against row q of the right block. -/
theorem product_apply (X Wb : FVec Ideal S1024x1024 .f32) (p q : Fin 1024) :
    matmul dot_S1024x1024_S1024x1024_S1024x1024_1_1_0_0_n_n (some .fp32) X Wb (constant (F := Ideal) S1024x1024 .f32 0x00000000#32) (ix2 p q)
      = ∑ k : Fin 1024, X (ix2 p k) * Wb (ix2 q k) := by
  simp only [matmul]
  rw [Ideal.matmul_constant_zero_apply,
    ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q)
      ((contrEquiv1 dot_S1024x1024_S1024x1024_S1024x1024_1_1_0_0_n_n 1024 rfl rfl).symm k) = ix2 p k :=
    funext fun a => Fin.ext (by
      match a with
      | ⟨0, _⟩ => exact left_row _ _
      | ⟨1, _⟩ => exact (left_col _ _).trans hk)
  have er : dot_S1024x1024_S1024x1024_S1024x1024_1_1_0_0_n_n.rhsIdx (ix2 p q)
      ((contrEquiv1 dot_S1024x1024_S1024x1024_S1024x1024_1_1_0_0_n_n 1024 rfl rfl).symm k) = ix2 q k :=
    funext fun a => Fin.ext (by
      match a with
      | ⟨0, _⟩ => exact right_row _ _
      | ⟨1, _⟩ => exact (right_col _ _).trans hk)
  rw [el, er]

/-- The bias laid out as a [1, 1024] row and repeated down the rows: entry (p, q) is bb[q]. -/
theorem bias_apply (bb : FVec Ideal S1024 .f32) (p q : Fin 1024) :
    broadcastTo S1024x1024 (shapeCast S1x1024 bb shapeCasts_S1024_S1x1024) broadcasts_S1x1024_S1024x1024 (ix2 p q) = bb (ix1 q) := by
  rw [broadcastTo_apply _ broadcasts_S1x1024_S1024x1024 (ix2 p q) (ix2 (0 : Fin 1) q) (fun a => by
    match a with
    | ⟨0, _⟩ => rfl
    | ⟨1, _⟩ => rfl)]
  refine (shapeCast_addUnit_apply (![1024] : Fin 1 → Nat) bb shapeCasts_S1024_S1x1024 (ix2 (0 : Fin 1) q)).trans ?_
  exact congrArg bb (funext fun a => by match a with | ⟨0, _⟩ => rfl)

/-- THE STORED VALUE at (p, q): Σ_k X[p, k] · Wb[q, k] + bb[q]. -/
theorem stored_apply (X Wb : FVec Ideal S1024x1024 .f32) (bb : FVec Ideal S1024 .f32) (p q : Fin 1024) :
    k0_pay1 (F := Ideal) X Wb bb (ix2 p q) = (∑ k : Fin 1024, X (ix2 p k) * Wb (ix2 q k)) + bb (ix1 q) := by
  unfold k0_pay1
  rw [addf_apply, shapeCast_self, product_apply, bias_apply]

end Cert.KernelIdeal.BlockProduct

end
-- ==== Proof.Affine.lean ====
/-
  The function both programs compute, stated once over literal shapes and with no program in sight.

  For x : [256, 64, 1024], W : [4096, 1024], b : [4096] the result is the affine map applied to every row x[s, t, ·]:

      affine x W b [s, t, o] = Σ_k x[s, t, k] · W[o, k] + b[o]        (k over the 1024 input features)

  The kernel does not see the leading two axes: it works on the flattened view x2 : [16384, 1024] whose row s·64 + t is
  x[s, t, ·], computes

      rowsAffine x2 W b [r, o] = Σ_k x2[r, k] · W[o, k] + b[o]

  and the [16384, 4096] result is then read back at shape [256, 64, 4096]. Row-major flattening commutes with a map that acts
  on rows (`unflatten_rowsAffine`): position (s·64 + t)·4096 + o of the flat result is position ((s·64 + t), o), and position
  (s·64 + t)·1024 + k of x is position ((s·64 + t), k) of x2. No law of the extended reals is used: the two sides are the same
  sum of the same products, so nothing here depends on the inputs being finite.
-/
import Idealize.ShloMosaic.PureOps.Ideal
import Idealize.ShloMosaic.Lib.ValueIdx
import Idealize.ShloMosaic.Lib.Pipeline.Value

noncomputable section

namespace Cert.Affine

open Idealize.ShloMosaic Idealize.ShloMosaic.ValueIdx

/-- x : [256, 64, 1024]. -/
abbrev SX : Shape := ⟨3, ![256, 64, 1024]⟩
/-- W : [4096, 1024], one row of 1024 weights per output feature. -/
abbrev SW : Shape := ⟨2, ![4096, 1024]⟩
/-- b : [4096]. -/
abbrev SB : Shape := ⟨1, ![4096]⟩
/-- x with its two leading axes flattened: [16384, 1024]. -/
abbrev SX2 : Shape := ⟨2, ![16384, 1024]⟩
/-- The flat result: [16384, 4096]. -/
abbrev SO2 : Shape := ⟨2, ![16384, 4096]⟩
/-- The result: [256, 64, 4096]. -/
abbrev SO : Shape := ⟨3, ![256, 64, 4096]⟩

/-- The affine map on the flattened rows: entry (r, o) is the product of row r of x2 with row o of W, plus b[o]. -/
def rowsAffine (x2 : FVec Ideal SX2 .f32) (W : FVec Ideal SW .f32) (b : FVec Ideal SB .f32) : FVec Ideal SO2 .f32 :=
  fun j => (∑ k : Fin 1024, x2 (ix2 (j 0) k) * W (ix2 (j 1) k)) + b (ix1 (j 1))

/-- The affine map on the rows x[s, t, ·]: entry (s, t, o) is the product of x[s, t, ·] with row o of W, plus b[o]. -/
def affine (x : FVec Ideal SX .f32) (W : FVec Ideal SW .f32) (b : FVec Ideal SB .f32) : FVec Ideal SO .f32 :=
  fun i => (∑ k : Fin 1024, x (ix3 (i 0) (i 1) k) * W (ix2 (i 2) k)) + b (ix1 (i 2))

/-- The flat row s·64 + t of a [256, 64, ·] array. -/
def flatRow (s : Fin 256) (t : Fin 64) : Fin 16384 := ⟨s.val * 64 + t.val, by have := s.isLt; have := t.isLt; omega⟩

/-- Flattening x and reading the flat view at (s·64 + t, k) is reading x at (s, t, k). -/
theorem flatten_apply (x : FVec Ideal SX .f32) (h : SX.ShapeCasts SX2) (s : Fin 256) (t : Fin 64) (k : Fin 1024) :
    shapeCast SX2 x h (ix2 (flatRow s t) k) = x (ix3 s t k) :=
  shapeCast_apply x h (ix2 (flatRow s t) k) (ix3 s t k) (by
    rw [Shape.rowMajor_val_three, Shape.rowMajor_val_two]
    rfl)

/-- The affine map of the flattened rows, read back at [256, 64, 4096], is the affine map of the rows x[s, t, ·]. -/
theorem unflatten_rowsAffine (x : FVec Ideal SX .f32) (W : FVec Ideal SW .f32) (b : FVec Ideal SB .f32)
    (h1 : SX.ShapeCasts SX2) (h2 : SO2.ShapeCasts SO) :
    shapeCast SO (rowsAffine (shapeCast SX2 x h1) W b) h2 = affine x W b := by
  funext i
  obtain ⟨s, t, o, rfl⟩ : ∃ (s : Fin 256) (t : Fin 64) (o : Fin 4096), i = ix3 s t o := ⟨i 0, i 1, i 2, eq_ix3 i⟩
  rw [shapeCast_apply _ h2 (ix3 s t o) (ix2 (flatRow s t) o) (by
    rw [Shape.rowMajor_val_three, Shape.rowMajor_val_two]
    rfl)]
  show (∑ k : Fin 1024, shapeCast SX2 x h1 (ix2 (flatRow s t) k) * W (ix2 o k)) + b (ix1 o)
    = (∑ k : Fin 1024, x (ix3 s t k) * W (ix2 o k)) + b (ix1 o)
  simp only [flatten_apply]

end Cert.Affine

end
-- ==== Proof.BlockRows.lean ====
/-
  A stored block is a block of the flat affine map.

  Fix a block row r (of 16) and a block column c (of 4). Suppose the three blocks the body loads are what the grid point
  (r, c) stages:

    * X  is rows 1024·r … 1024·r + 1023 of the flattened input x2, with all 1024 columns;
    * Wb is rows 1024·c … 1024·c + 1023 of the weights W, with all 1024 columns;
    * bb is entries 1024·c … 1024·c + 1023 of the bias b.

  Then entry (p, q) of what the body stores, Σ_k X[p, k] · Wb[q, k] + bb[q], is

    Σ_k x2[1024·r + p, k] · W[1024·c + q, k] + b[1024·c + q] = rowsAffine x2 W b [1024·r + p, 1024·c + q]:

  the stored block is block (r, c) of the flat affine map. The contraction runs over the whole feature axis inside one block,
  so no sum is split across grid points and nothing is reordered.
-/
import proofs.«149523_j41162966565492_2_alg».proof.Proof.BlockProduct
import proofs.«149523_j41162966565492_2_alg».proof.Proof.Affine

noncomputable section

namespace Cert.KernelIdeal.BlockRows

open Cert.KernelIdeal Cert.KernelIdeal.Gen Cert.Affine Idealize.ShloMosaic Idealize.ShloMosaic.ValueIdx

/-- The stored block at y is the flat affine map at e, when e is y moved by (1024·r, 1024·c) and the loaded blocks are
    the corresponding rows of x2, rows of W and entries of b. -/
theorem stored_eq_rowsAffine (X Wb : FVec Ideal S1024x1024 .f32) (bb : FVec Ideal S1024 .f32)
    (x2 : FVec Ideal SX2 .f32) (W : FVec Ideal SW .f32) (b : FVec Ideal SB .f32)
    (r c : Nat) (y : S1024x1024.Idx) (e : SO2.Idx)
    (he0 : (e 0).val = r * 1024 + (y 0).val) (he1 : (e 1).val = c * 1024 + (y 1).val)
    (hX : ∀ (u : S1024x1024.Idx) (k : SX2.Idx), (k 0).val = r * 1024 + (u 0).val → (k 1).val = (u 1).val → X u = x2 k)
    (hW : ∀ (u : S1024x1024.Idx) (k : SW.Idx), (k 0).val = c * 1024 + (u 0).val → (k 1).val = (u 1).val → Wb u = W k)
    (hb : ∀ (u : S1024.Idx) (k : SB.Idx), (k 0).val = c * 1024 + (u 0).val → bb u = b k) :
    k0_pay1 (F := Ideal) X Wb bb y = rowsAffine x2 W b e := by
  obtain ⟨p, q, rfl⟩ : ∃ (p q : Fin 1024), y = ix2 p q := ⟨y 0, y 1, eq_ix2 y⟩
  obtain ⟨e0, e1, rfl⟩ : ∃ (e0 : Fin 16384) (e1 : Fin 4096), e = ix2 e0 e1 := ⟨e 0, e 1, eq_ix2 e⟩
  have h0 : e0.val = r * 1024 + p.val := he0
  have h1 : e1.val = c * 1024 + q.val := he1
  rw [BlockProduct.stored_apply]
  show _ = (∑ k : Fin 1024, x2 (ix2 e0 k) * W (ix2 e1 k)) + b (ix1 e1)
  rw [hb (ix1 q) (ix1 e1) h1]
  refine congrArg (· + b (ix1 e1)) (Finset.sum_congr rfl fun k _ => ?_)
  rw [hX (ix2 p k) (ix2 e0 k) h0 rfl, hW (ix2 q k) (ix2 e1 k) h1 rfl]

end Cert.KernelIdeal.BlockRows

end
-- ==== Proof.RegionArray.lean ====
/-
  The region's result array after the run is the flat affine map of the arrays the region found.

  What grid point t writes back is the body's stored block, and by the block reads the three loaded blocks are rows 1024·i … of
  the flattened input, rows 1024·j … of W and entries 1024·j … of b, where (i, j) is the output window's block index at t. So
  the written block is block (i, j) of rowsAffine (flattened input) W b. The output's block at t holds the indices (r, o) with
  1024·i ≤ r < 1024·i + 1024 and 1024·j ≤ o < 1024·j + 1024; index (r, o) of the [16384, 4096] array lies in the block of the
  point with (i, j) = (r / 1024, o / 1024), which exists. Every index is covered, so the whole array ends as that function.
-/
import proofs.«149523_j41162966565492_2_alg».proof.Proof.BlockReads
import proofs.«149523_j41162966565492_2_alg».proof.Proof.BlockRows

noncomputable section

namespace Cert.KernelIdeal.RegionArray

open Cert.KernelIdeal Cert.KernelIdeal.Gen Cert.Affine Idealize.ShloMosaic Idealize.ShloMosaic.TcCoe Idealize.SL.Sem
open Idealize.ShloMosaic.Pipeline (Dat)

variable (m : (ℓ : Loc nD τ sig) → Buf (Elt Ideal) ℓ)

theorem zero2 : (![0, 0] : Fin 2 → Nat) = fun _ => 0 := funext fun a => by fin_cases a <;> rfl
theorem zero1 : (![0] : Fin 1 → Nat) = fun _ => 0 := funext fun a => by fin_cases a <;> rfl

/-- The flat affine map of the arrays as the region finds them. -/
abbrev flatResult (c : Dev nD) : S16384x4096.Idx → Elt Ideal .f32 :=
  rowsAffine (V m c main_v0) (V m c main_arg1) (V m c main_arg2)

/-- What point t writes back is block t of the flat affine map. -/
theorem written_block (c : Dev nD) (t : Fin cfg0.N) :
    (dats m 0 c).flushed 3 t = ((cfg0.win 3).blk t).view.read (Elt Ideal) (flatResult m c) := by
  show (cfg0.win 3).cut (grid0.coords t) ((dats m 0 c).after 3 t) = _
  rw [after0_3]
  unfold out0_3
  rw [View.canon_unit_zero zero2]
  simp only [View.ld_unit_zero (S := S1024x1024) zero2, View.ld_unit_zero (S := S1024) zero1]
  funext y
  show k0_pay1 (F := Ideal) (iblk m c 0 t) (iblk m c 1 t) (iblk m c 2 t) y = flatResult m c (((cfg0.win 3).blk t).view.emb y)
  refine BlockRows.stored_eq_rowsAffine (iblk m c 0 t) (iblk m c 1 t) (iblk m c 2 t)
    (V m c main_v0) (V m c main_arg1) (V m c main_arg2)
    (win0_3.index t (0 : Fin 2)) (win0_3.index t (1 : Fin 2)) y (((cfg0.win 3).blk t).view.emb y) ?_ ?_
    (fun u k h0 h1 => BlockReads.input_block m c t u k h0 h1)
    (fun u k h0 h1 => BlockReads.weight_block m c t u k h0 h1)
    (fun u k h0 => BlockReads.bias_block m c t u k h0)
  · show win0_3.index t (0 : Fin 2) * 1024 + 1 * (y 0).val = win0_3.index t (0 : Fin 2) * 1024 + (y 0).val
    omega
  · show win0_3.index t (1 : Fin 2) * 1024 + 1 * (y 1).val = win0_3.index t (1 : Fin 2) * 1024 + (y 1).val
    omega

/-- An index of the array is in point t's block iff each coordinate is in the block's range on its axis. -/
theorem mem_block (t : Fin cfg0.N) (i : S16384x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v1).slice (win0_3.rect t)).set ↔ _
  rw [View.set_slice_whole, Rect.mem_set_unit]
  exact Iff.rfl

/-- Every index (r, o) of the array is in the block of the point with block index (r / 1024, o / 1024). -/
theorem covered (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  obtain ⟨t, ht⟩ := BlockReads.index_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_block]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- THE ARRAY after the run: the flat affine map of the arrays the region found. -/
theorem result_array (c : Dev nD) : (dats m 0 c).arrAt 3 cfg0.N = flatResult m c :=
  (dats m 0 c).arrAt_eq_of_cover 3 (flatResult m c) (fun t _ => written_block m c t) covered

end Cert.KernelIdeal.RegionArray

end
-- ==== Proof.KernelValue.lean ====
/-
  The kernel program's result is the affine map of its arguments as launched.

  After the region one host line reshapes the region's [16384, 4096] array to [256, 64, 4096] (row-major), and that is the
  program's result. The region's array is the flat affine map of (the row-major reshape of x, W, b), so the result is that map
  read back at [256, 64, 4096] — which is the affine map of x itself, because reshaping rows in and out commutes with a map that
  acts on rows (`unflatten_rowsAffine`). The three arguments end as launched: x is read only by the host reshape, W and b are
  inputs of the region.
-/
import proofs.«149523_j41162966565492_2_alg».proof.Proof.RegionArray

noncomputable section

namespace Cert.KernelIdeal.KernelValue

open Cert.KernelIdeal Cert.KernelIdeal.Gen Cert.Affine Idealize.ShloMosaic Idealize.ShloMosaic.TcCoe Idealize.SL.Sem
open Idealize.ShloMosaic.StableHlo

variable (m : (ℓ : Loc nD τ sig) → Buf (Elt Ideal) ℓ) (ρ : Dev nD → PrngReg)

/-- The host line after the region leaves, in the result buffer, the row-major reshape of the region's array. -/
theorem tail_result (c : Dev nD) :
    (Pipeline.afterTail₀ cfgs (dats m) 0 (V0 m) [hostOps1] c main_v2 : S256x64x4096.Idx → Elt Ideal .f32)
      = shapeCast S256x64x4096 ((dats m 0 c).arrAt 3 cfg0.N : S16384x4096.Idx → Elt Ideal .f32) shapeCasts_S16384x4096_S256x64x4096 := by
  have e : Pipeline.withArrays (cfgs 0).spec c (V0 m c) (fun w => (dats m 0 c).arrAt w (cfgs 0).N) (Proc.devRef .tc main_v1)
      = (dats m 0 c).arrAt 3 cfg0.N :=
    Pipeline.withArrays_arr spec0 launch0.win.arr_inj c (V0 m c) (fun w => (dats m 0 c).arrAt w cfg0.N) 3
  unfold Pipeline.afterTail₀
  show StableHlo.after hostOps1 _ (Proc.devRef .tc main_v2) = _
  after_results
  exact congrArg (fun A : S16384x4096.Idx → Elt Ideal .f32 => shapeCast S256x64x4096 A shapeCasts_S16384x4096_S256x64x4096) e

/-- THE RESULT: the affine map of x, W, b as launched. -/
theorem result_eq (c : Dev nD) :
    (Pipeline.afterTail₀ cfgs (dats m) 0 (V0 m) [hostOps1] c main_v2 : S256x64x4096.Idx → Elt Ideal .f32)
      = affine (m ((c : Thread nD τ).loc main_arg0)) (m ((c : Thread nD τ).loc main_arg1)) (m ((c : Thread nD τ).loc main_arg2)) := by
  rw [tail_result, RegionArray.result_array]
  unfold RegionArray.flatResult
  rw [BlockReads.flattened_input, V_main_arg1, V_main_arg2]
  exact unflatten_rowsAffine _ _ _ _ _

/-- The run, read: every weakly fair execution terminates with the result buffer at the affine map of the arguments and the
    arguments unchanged. -/
theorem run : θ_run defs (onTc (τ := τ) (main (F := Ideal))) ⟨m, fun _ => 0, ρ⟩ fun r => ∀ c : Dev nD,
      r.2.mem ((c.tc : Thread nD τ).loc main_v2)
        = affine (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KernelValue

end
-- ==== Proof.ReferenceValue.lean ====
/-
  The reference computes the affine map.

  The reference is one contraction and one add: dot_general contracts axis 2 of x with axis 1 of W (no batch axis), giving
  [256, 64, 4096] with entry (s, t, o) = Σ_k x[s, t, k] · W[o, k]; b is broadcast first to [1, 1, 4096] and then to
  [256, 64, 4096], so its entry at (s, t, o) is b[o]; the two are added. Reading the four stages at an index and naming the
  operand indices by their coordinates gives exactly `affine x W b` — with the same summand at every k, so not even the order
  of the sum differs.
-/
import proofs.«149523_j41162966565492_2_alg».proof.Proof.Gen.ReferenceIdeal.Read
import proofs.«149523_j41162966565492_2_alg».proof.Proof.Affine

noncomputable section

namespace Cert.ReferenceIdeal.RefValue

open Cert.ReferenceIdeal Cert.ReferenceIdeal.Read Cert.Affine Idealize.ShloMosaic Idealize.ShloMosaic.ValueIdx

/-- The reference's result, as a function of its three arguments, is the affine map. -/
theorem reference_is_affine (x : FVec Ideal S256x64x1024 .f32) (W : FVec Ideal S4096x1024 .f32) (b : FVec Ideal S4096 .f32) :
    val_main_v3 (F := Ideal) x W b = affine x W b := by
  funext i
  have el : ∀ k : Fin 1024, lidx_main_v0 i k = ix3 (i 0) (i 1) k := fun k => funext fun a => Fin.ext (by
    match a with
    | ⟨0, _⟩ => rfl
    | ⟨1, _⟩ => rfl
    | ⟨2, _⟩ => rfl)
  have er : ∀ k : Fin 1024, ridx_main_v0 i k = ix2 (i 2) k := fun k => funext fun a => Fin.ext (by
    match a with
    | ⟨0, _⟩ => rfl
    | ⟨1, _⟩ => rfl)
  have eb : idx_main_v1 (idx_main_v2 i) = ix1 (i 2) := funext fun a => Fin.ext (by
    match a with
    | ⟨0, _⟩ => rfl)
  rw [val_main_v3_apply, val_main_v0_apply, val_main_v2_apply, val_main_v1_apply]
  simp only [el, er, eb]
  rfl

end Cert.ReferenceIdeal.RefValue

end
-- ==== Proof.lean ====
/-
  A dense layer applied to every row of a [256, 64, 1024] input: the tiled kernel against `einsum('sbi,oi->sbo', x, W) + b`.

  Both programs compute, for x : [256, 64, 1024], W : [4096, 1024], b : [4096],

      out[s, t, o] = Σ_k x[s, t, k] · W[o, k] + b[o].

  The reference does it with one contraction over the feature axis and one broadcast add. The kernel flattens the two leading
  axes of x (row s·64 + t of a [16384, 1024] array is x[s, t, ·]), walks a 16 × 4 grid of [1024, 1024] output blocks — block
  (i, j) is rows 1024·i … of the flattened input times the transpose of rows 1024·j … of W, started from a zero accumulator,
  plus entries 1024·j … of b — and reshapes the [16384, 4096] result back to [256, 64, 4096]. The feature axis is never
  split, so each output entry is one sum over k with the same summands on both sides; the only facts used about the extended
  reals are 0 + a = a and that equal terms are equal. In particular the inputs' finiteness is not needed for the value, and
  the precondition is never opened.

  The modules:
    Affine          the function above, its flattened form, and that flattening commutes with it;
    BlockProduct    the body's stored value at an index: Σ_k X[p, k] · Wb[q, k] + bb[q];
    BlockRows       hence a stored block is a block of the flattened affine map, given what the loaded blocks are;
    BlockReads      what the loaded blocks are at each grid point, and that the flattened input is the reshape of x;
    RegionArray     the 64 written blocks cover the region's array, which is therefore the flattened affine map;
    KernelValue     the reshape after the region, and the kernel program's run with its result named;
    ReferenceValue  the reference's four operations read at an index: the same function.

  Every frame is the generated one (the reference's is its generated run with the result dropped); the idealization rewrote
  nothing, so `preserves` has nothing to state.
-/
import proofs.«149523_j41162966565492_2_alg».proof.Defs
import proofs.«149523_j41162966565492_2_alg».proof.Proof.Gen.Kernel
import proofs.«149523_j41162966565492_2_alg».proof.Proof.Gen.Kernel.Skeleton
import proofs.«149523_j41162966565492_2_alg».proof.Proof.Gen.Kernel.Launch
import proofs.«149523_j41162966565492_2_alg».proof.Proof.Gen.Kernel.Points
import proofs.«149523_j41162966565492_2_alg».proof.Proof.Gen.Kernel.Frame
import proofs.«149523_j41162966565492_2_alg».proof.Proof.Gen.KernelIdeal
import proofs.«149523_j41162966565492_2_alg».proof.Proof.Gen.KernelIdeal.Skeleton
import proofs.«149523_j41162966565492_2_alg».proof.Proof.Gen.KernelIdeal.Launch
import proofs.«149523_j41162966565492_2_alg».proof.Proof.Gen.KernelIdeal.Points
import proofs.«149523_j41162966565492_2_alg».proof.Proof.Gen.KernelIdeal.Frame
import proofs.«149523_j41162966565492_2_alg».proof.Proof.Gen.ReferenceIdeal
import proofs.«149523_j41162966565492_2_alg».proof.Proof.Gen.ReferenceIdeal.Run
import proofs.«149523_j41162966565492_2_alg».proof.Proof.Gen.ReferenceIdeal.Read
import proofs.«149523_j41162966565492_2_alg».proof.Proof.Gen.Pre_finite_inputs
import proofs.«149523_j41162966565492_2_alg».proof.Proof.KernelValue
import proofs.«149523_j41162966565492_2_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs, faults nowhere, and leaves its arguments as launched. -/
theorem frame_kernel : Cert.frame_Kernel := fun m ρ _ => Cert.Kernel.Gen.frame m ρ

/-- So does the kernel read at the exact values. -/
theorem frame_kernel_ideal : Cert.frame_KernelIdeal := fun m ρ _ => Cert.KernelIdeal.Gen.frame m ρ

/-- And the reference: its run, with the statement about the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on x, W and b both programs end with the affine map of them in the result buffer: the kernel by
    its run read through the blocks, the reference by its four operations read at an index. -/
theorem algebraic : Cert.algebraic_KernelIdeal_ReferenceIdeal := by
  intro m ρ m' ρ' _ hagree
  refine ⟨fun c => Cert.Affine.affine
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v3_eq, Cert.ReferenceIdeal.RefValue.reference_is_affine,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
